-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S_, .f32⟩
  | .hbm, ⟨50, _⟩ => ⟨S100000x128, .f32⟩
  | .hbm, ⟨51, _⟩ => ⟨S600000x1, .i32⟩
  | .hbm, ⟨52, _⟩ => ⟨S100000x128, .f32⟩
  | .hbm, ⟨53, _⟩ => ⟨S1x128, .f32⟩
  | .hbm, ⟨54, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x600000, .i32⟩
  | .hbm, ⟨47, _⟩ => ⟨S600000, .i32⟩
  | .hbm, ⟨48, _⟩ => ⟨S1x600000, .i32⟩
  | .hbm, ⟨49, _⟩ => ⟨S600000, .i32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S_, .f32⟩
  | .hbm, ⟨64, _⟩ => ⟨S600000, .f32⟩
  | .hbm, ⟨65, _⟩ => ⟨S_, .f32⟩
  | .hbm, ⟨66, _⟩ => ⟨S100000, .f32⟩
  | .hbm, ⟨67, _⟩ => ⟨S600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MeanLaw.lean ====
/-
  The one arithmetic law of this certificate. A neighbourhood mean is taken two ways: the sum of the neighbours'
  rows times the reciprocal 1 / max(count, 1), and the same sum divided by max(count, 1). On the extended reals
  the two agree for EVERY count: the divisor max(count, 1) is at least 1, so it is not zero, and off zero a quotient
  x / c is the product x · c⁻¹; hence a · (1 / c) = a · (1 · c⁻¹) = a · c⁻¹ = a / c. No finiteness is used.
-/
import Idealize.ShloMosaic.PureOps.Ideal.Laws

namespace Cert.Sage

open Idealize.ShloMosaic

/-- The word 0x3F800000 denotes the real number one. -/
theorem ofBits_one : Ideal.ofBits .f32 0x3F800000#32 = (1 : EReal) := by
  simp [Ideal.ofBits, Ideal.ieee]
  rw [← EReal.coe_mul]
  norm_num

/-- Off zero the exact quotient is the product with the inverse. -/
theorem div_of_ne_zero (x c : EReal) (hc : c ≠ 0) : Ideal.div x c = x * c⁻¹ := by
  unfold Ideal.div
  rw [if_neg hc]

/-- A number that is at least one is not zero. -/
theorem ne_zero_of_one_le {c : EReal} (hc : 1 ≤ c) : c ≠ 0 := by
  intro h
  rw [h] at hc
  exact absurd hc (by norm_num)

/-- Multiplying by the reciprocal of a divisor that is at least one is dividing by it. -/
theorem mul_recip_eq_div (a c : EReal) (hc : 1 ≤ c) : a * Ideal.div 1 c = Ideal.div a c := by
  have h0 : c ≠ 0 := ne_zero_of_one_le hc
  rw [div_of_ne_zero 1 c h0, div_of_ne_zero a c h0, one_mul]

/-- The two means agree: the sum `a` of a node's neighbour rows times the reciprocal of max(count, 1) is `a`
    divided by max(count, 1), the one and the divisor written with the float word for 1.0 as both programs print it. -/
theorem mean_eq (a cnt : EReal) :
    a * Ideal.div (Ideal.ofBits .f32 0x3F800000#32) (max cnt (Ideal.ofBits .f32 0x3F800000#32))
      = Ideal.div a (max cnt (Ideal.ofBits .f32 0x3F800000#32)) := by
  rw [ofBits_one]
  exact mul_recip_eq_div a (max cnt 1) (le_max_right cnt 1)

end Cert.Sage
-- ==== Proof.SageSpec.lean ====
/-
  One layer of the network, entry by entry, on the extended reals.

  For node r and output column q a layer computes
      lin(r, q) = Σ_k A(r, k) · Wl(k, q)  +  b(q)  +  Σ_k X(r, k) · Wr(k, q),
  where X(r, ·) is the node's own feature row and A(r, ·) the MEAN of its in-neighbours' rows: the sum S(r, ·) of
  those rows over max(count(r), 1). The two programs differ in one place only, how the mean is taken:
      the kernel      A(r, k) = S(r, k) · inv(r),   inv(r) = 1 / max(count(r), 1)   (a column computed once);
      the reference   A(r, k) = S(r, k) / max(count(r), 1).
  The entry depends on the row r of S and X, on column q of the weights and on entry q of the bias, and on nothing
  else; the sums over k are the same sums on both sides, term by term, so no rearrangement is needed — only the law
  a · (1 / c) = a / c for c ≥ 1 inside each term.
-/
import Idealize.ShloMosaic.Lib.ValueIdx
import Idealize.ShloMosaic.PureOps.Ideal.Laws
import proofs.«119740_j16690242913041_2_alg».proof.Proof.MeanLaw

noncomputable section

namespace Cert.Sage

open Idealize.ShloMosaic Idealize.ShloMosaic.ValueIdx

/-- The float word for 1.0 and for 0.0, as extended reals. -/
abbrev one : EReal := Ideal.ofBits .f32 0x3F800000#32
abbrev zero : EReal := Ideal.ofBits .f32 0x00000000#32

/-- The linear part of a layer at one output entry: the node's aggregated row `A` against column `q` of the left
    weights, plus the bias entry, plus the node's own row `X` against column `q` of the right weights. -/
def linAt (A X : Fin 128 → EReal) (Wl Wr : FVec Ideal ⟨2, ![128, 128]⟩ .f32) (bq : EReal) (q : Fin 128) : EReal :=
  (∑ k : Fin 128, A k * Wl (ix2 k q)) + bq + ∑ k : Fin 128, X k * Wr (ix2 k q)

/-- The entry depends on the aggregated row, the own row and the bias entry through their values only. -/
theorem linAt_congr {A A' X X' : Fin 128 → EReal} (Wl Wr : FVec Ideal ⟨2, ![128, 128]⟩ .f32) {bq bq' : EReal} (q : Fin 128)
    (hA : ∀ k, A k = A' k) (hX : ∀ k, X k = X' k) (hb : bq = bq') : linAt A X Wl Wr bq q = linAt A' X' Wl Wr bq' q := by
  have eA : A = A' := funext hA
  have eX : X = X' := funext hX
  rw [eA, eX, hb]

/-- Row and column of an index of a matrix, as numbers below the literal extents. -/
def rowOf {n c : ℕ} (i : (⟨2, ![n, c]⟩ : Shape).Idx) : Fin n := ⟨(i 0).val, idx2_lt0 i⟩
def colOf {n c : ℕ} (i : (⟨2, ![n, c]⟩ : Shape).Idx) : Fin c := ⟨(i 1).val, idx2_lt1 i⟩

theorem rowOf_ix2 {n c : ℕ} (r : Fin n) (q : Fin c) : rowOf (ix2 r q) = r := rfl
theorem colOf_ix2 {n c : ℕ} (r : Fin n) (q : Fin c) : colOf (ix2 r q) = q := rfl

/-- An index of a matrix is its row and its column. -/
theorem idx_eq {n c : ℕ} (i : (⟨2, ![n, c]⟩ : Shape).Idx) : i = ix2 (rowOf i) (colOf i) :=
  funext fun a => Fin.ext (by match a with | ⟨0, _⟩ => rfl | ⟨1, _⟩ => rfl)

/-- The kernel's arrangement over whole arrays: neighbour sums `S`, the column `inv` of reciprocals, features `X`,
    the bias as a row matrix `b`. -/
def layerK (S : FVec Ideal ⟨2, ![100000, 128]⟩ .f32) (inv : FVec Ideal ⟨2, ![100000, 1]⟩ .f32)
    (X : FVec Ideal ⟨2, ![100000, 128]⟩ .f32) (Wl : FVec Ideal ⟨2, ![128, 128]⟩ .f32) (b : FVec Ideal ⟨2, ![1, 128]⟩ .f32)
    (Wr : FVec Ideal ⟨2, ![128, 128]⟩ .f32) : FVec Ideal ⟨2, ![100000, 128]⟩ .f32 :=
  fun i => linAt (fun k => S (ix2 (rowOf i) k) * inv (ix2 (rowOf i) (0 : Fin 1))) (fun k => X (ix2 (rowOf i) k)) Wl Wr
    (b (ix2 (0 : Fin 1) (colOf i))) (colOf i)

/-- The reference's arrangement over whole arrays: neighbour sums `S` divided by max(count, 1), the bias a vector. -/
def layerR (S : FVec Ideal ⟨2, ![100000, 128]⟩ .f32) (cnt : FVec Ideal ⟨1, ![100000]⟩ .f32)
    (X : FVec Ideal ⟨2, ![100000, 128]⟩ .f32) (Wl : FVec Ideal ⟨2, ![128, 128]⟩ .f32) (b : FVec Ideal ⟨1, ![128]⟩ .f32)
    (Wr : FVec Ideal ⟨2, ![128, 128]⟩ .f32) : FVec Ideal ⟨2, ![100000, 128]⟩ .f32 :=
  fun i => linAt (fun k => Ideal.div (S (ix2 (rowOf i) k)) (max (cnt (ix1 (rowOf i))) one)) (fun k => X (ix2 (rowOf i) k)) Wl Wr
    (b (ix1 (colOf i))) (colOf i)

/-- The activation between the layers: the maximum with zero, entry by entry. -/
def relu {s : Shape} (Y : FVec Ideal s .f32) : FVec Ideal s .f32 := fun i => max (Y i) zero

/-- THE LAW: when the kernel's column holds 1 / max(count, 1) and its bias row holds the bias vector, the two
    arrangements are one array. Inside each term, S(r, k) · (1 / c) = S(r, k) / c because c = max(count, 1) ≥ 1. -/
theorem layerK_eq_layerR (S : FVec Ideal ⟨2, ![100000, 128]⟩ .f32) (inv : FVec Ideal ⟨2, ![100000, 1]⟩ .f32)
    (cnt : FVec Ideal ⟨1, ![100000]⟩ .f32) (X : FVec Ideal ⟨2, ![100000, 128]⟩ .f32) (Wl Wr : FVec Ideal ⟨2, ![128, 128]⟩ .f32)
    (b2 : FVec Ideal ⟨2, ![1, 128]⟩ .f32) (b : FVec Ideal ⟨1, ![128]⟩ .f32)
    (hinv : ∀ r : Fin 100000, inv (ix2 r (0 : Fin 1)) = Ideal.div one (max (cnt (ix1 r)) one))
    (hb : ∀ q : Fin 128, b2 (ix2 (0 : Fin 1) q) = b (ix1 q)) :
    layerK S inv X Wl b2 Wr = layerR S cnt X Wl b Wr := by
  funext i
  unfold layerK layerR
  refine linAt_congr Wl Wr (colOf i) (fun k => ?_) (fun _ => rfl) (hb (colOf i))
  rw [hinv (rowOf i)]
  exact mean_eq (S (ix2 (rowOf i) k)) (cnt (ix1 (rowOf i)))

end Cert.Sage

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KernelBody.lean ====
/-
  The two launches' bodies at one entry of a block of 5000 rows.

  Each body loads a block of the neighbour sums (5000 × 128), the matching piece of the reciprocal column (5000 × 1),
  the block of node features (5000 × 128), both weight matrices whole and the bias row (1 × 128). It scales every row
  of the sums by that row's reciprocal, multiplies by the left weights, adds the bias to every row, adds the features
  times the right weights, and — in the first launch only — takes the maximum with zero. On the extended reals the
  roundings to the narrower format are the identity and a matrix product into a zero accumulator is the plain sum over
  the 128 contracted positions, so entry (p, q) of the stored block is the layer's linear part of row p of the loaded
  blocks.
-/
import proofs.«119740_j16690242913041_2_alg».proof.Proof.Gen.KernelIdeal.Skeleton
import proofs.«119740_j16690242913041_2_alg».proof.Proof.SageSpec
import proofs.«119740_j16690242913041_2_alg».proof.Proof.LibKeepdims
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Sage

/-- The dimension numbers of the body's two products: rows × 128 against 128 × columns. -/
abbrev D := dot_S5000x128_S128x128_S5000x128_1_0_0_1_n_n

theorem D_lhs0 (i : S5000x128.Idx) (κ : D.contr.Idx) : (D.lhsIdx i κ 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem D_lhs1 (i : S5000x128.Idx) (κ : D.contr.Idx) : (D.lhsIdx i κ 1).val = (κ ⟨0, by decide⟩).val :=
  D.lhsIdx_val_of_single rfl i κ
theorem D_rhs0 (i : S5000x128.Idx) (κ : D.contr.Idx) : (D.rhsIdx i κ 0).val = (κ ⟨0, by decide⟩).val :=
  D.rhsIdx_val_of_single rfl i κ
theorem D_rhs1 (i : S5000x128.Idx) (κ : D.contr.Idx) : (D.rhsIdx i κ 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A product of a 5000 × 128 block with a 128 × 128 matrix into the zero accumulator, at (p, q), is the sum over the
    128 contracted positions of the block's row p times the matrix's column q. -/
theorem product_apply (L : FVec Ideal S5000x128 .bf16) (R : FVec Ideal S128x128 .bf16) (p : Fin 5000) (q : Fin 128) :
    matmul D none L R (constant (F := Ideal) S5000x128 .f32 0x00000000#32) (ix2 p q) = ∑ k : Fin 128, L (ix2 p k) * R (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact D_lhs0 _ _
    | ⟨1, _⟩ => exact (D_lhs1 _ _).trans hk)
  have er : D.rhsIdx (ix2 p q) ((contrEquiv1 D 128 rfl rfl).symm k) = ix2 k q := funext fun a => Fin.ext (by
    match a with
    | ⟨0, _⟩ => exact (D_rhs0 _ _).trans hk
    | ⟨1, _⟩ => exact D_rhs1 _ _)
  rw [el, er]

/-- The scaled sums, rounded for the product, at (p, k): the sum's entry times row p's reciprocal. -/
theorem scaled_apply (v0 : Vec Ideal S5000x128 .f32) (v2 : Vec Ideal S5000x1 .f32) (p : Fin 5000) (k : Fin 128) :
    (truncf .bf16 (mulf (shapeCast S5000x128 v0 shapeCasts_S5000x128_S5000x128)
        (broadcastTo S5000x128 (shapeCast S5000x1 v2 shapeCasts_S5000x1_S5000x1) broadcasts_S5000x1_S5000x128)) bitsLt_bf16_f32
      : FVec Ideal S5000x128 .bf16) (ix2 p k) = v0 (ix2 p k) * v2 (ix2 p (0 : Fin 1)) := by
  rw [truncf_apply, mulf_apply, shapeCast_self, shapeCast_self]
  exact congrArg (v0 (ix2 p k) * ·) (Cert.Lib.Keepdims.broadcastTo_a1_ab_apply v2 broadcasts_S5000x1_S5000x128 p k)

/-- The bias row spread over the block's rows, at (p, q): the bias entry q. -/
theorem bias_apply (v14 : Vec Ideal S1x128 .f32) (p : Fin 5000) (q : Fin 128) :
    broadcastTo S5000x128 (shapeCast S1x128 v14 shapeCasts_S1x128_S1x128) broadcasts_S1x128_S5000x128 (ix2 p q)
      = v14 (ix2 (0 : Fin 1) q) := by
  rw [shapeCast_self]
  exact broadcastTo_1b_ab_apply v14 broadcasts_S1x128_S5000x128 p q

/-- THE SECOND LAUNCH'S BODY at (p, q): the layer's linear part of row p of the loaded blocks. -/
theorem second_apply (v0 : Vec Ideal S5000x128 .f32) (v2 : Vec Ideal S5000x1 .f32) (v7 : Vec Ideal S5000x128 .f32)
    (v10 v12 : Vec Ideal S128x128 .f32) (v15 : Vec Ideal S1x128 .f32) (p : Fin 5000) (q : Fin 128) :
    k1_pay1 v0 v2 v7 v10 v12 v15 (ix2 p q)
      = linAt (fun k => v0 (ix2 p k) * v2 (ix2 p (0 : Fin 1))) (fun k => v7 (ix2 p k)) v10 v12 (v15 (ix2 (0 : Fin 1) q)) q := by
  unfold k1_pay1 linAt
  dsimp only
  rw [addf_apply, addf_apply]
  refine congrArg₂ (· + ·) (congrArg₂ (· + ·) ?_ (bias_apply v15 p q)) ?_
  · refine (product_apply _ _ p q).trans (Finset.sum_congr rfl fun k _ => ?_)
    rw [scaled_apply v0 v2 p k, truncf_apply]
  · refine (product_apply _ _ p q).trans (Finset.sum_congr rfl fun k _ => ?_)
    rw [truncf_apply, shapeCast_self, truncf_apply]

/-- THE FIRST LAUNCH'S BODY at (p, q): the same linear part, then the maximum with zero. -/
theorem first_apply (v0 : Vec Ideal S5000x128 .f32) (v2 : Vec Ideal S5000x1 .f32) (v7 : Vec Ideal S5000x128 .f32)
    (v9 v11 : Vec Ideal S128x128 .f32) (v14 : Vec Ideal S1x128 .f32) (p : Fin 5000) (q : Fin 128) :
    k0_pay1 v0 v2 v7 v9 v11 v14 (ix2 p q)
      = max (linAt (fun k => v0 (ix2 p k) * v2 (ix2 p (0 : Fin 1))) (fun k => v7 (ix2 p k)) v9 v11 (v14 (ix2 (0 : Fin 1) q)) q) zero := by
  unfold k0_pay1 linAt
  dsimp only
  rw [maximumf_apply, addf_apply, addf_apply]
  refine congrArg₂ max (congrArg₂ (· + ·) (congrArg₂ (· + ·) ?_ (bias_apply v14 p q)) ?_) rfl
  · refine (product_apply _ _ p q).trans (Finset.sum_congr rfl fun k _ => ?_)
    rw [scaled_apply v0 v2 p k, truncf_apply]
  · refine (product_apply _ _ p q).trans (Finset.sum_congr rfl fun k _ => ?_)
    rw [truncf_apply, truncf_apply]

end Cert.KernelIdeal.Body

end
-- ==== Proof.KernelLayers.lean ====
/-
  From blocks to arrays: what each launch leaves in its output array, as one function of the arrays it finds.

  A launch walks twenty grid points; at point t it loads rows 5000 · t … 5000 · t + 4999 of the neighbour sums, of the
  reciprocal column and of the node features, the two weight matrices and the bias row whole, and writes back rows
  5000 · t … 5000 · t + 4999 of its output. Entry (p, q) of the block written at point t is therefore the layer at row
  5000 · t + p, column q, of the whole arrays; the twenty blocks tile the 100000 rows, so the output array ends as the
  layer of the whole arrays at every index. Everything here is stated at a parameter V, the buffer contents the
  launch is entered with, so the same statements serve both launches' entry contents.
-/
import proofs.«119740_j16690242913041_2_alg».proof.Proof.Gen.KernelIdeal.Frame
import proofs.«119740_j16690242913041_2_alg».proof.Proof.KernelBody

set_option maxRecDepth 16384

noncomputable section

namespace Cert.KernelIdeal.Layers

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat Cfg Window cellOf)

variable (V : (c : Dev nD) → (b : Ref sig .tc) → Buf (Elt Ideal) ((c : Thread nD τ).loc b))

theorem hz : (![0, 0] : Fin 2 → Nat) = fun _ => 0 := funext fun a => by fin_cases a <;> rfl

/-- Entry (p, q) of the first launch's stored block, when its loaded blocks are rows of whole arrays: the layer of those
    arrays at the array's row r, column q, after the activation. -/
theorem first_entry (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32)
    (S : FVec Ideal S100000x128 .f32) (inv : FVec Ideal S100000x1 .f32) (X : FVec Ideal S100000x128 .f32)
    (Wl : FVec Ideal S128x128 .f32) (b : FVec Ideal S1x128 .f32) (Wr : FVec Ideal S128x128 .f32)
    (p : Fin 5000) (q : Fin 128) (r : Fin 100000)
    (h0 : ∀ k : Fin 128, x0 (ix2 p k) = S (ix2 r k)) (h1 : x1 (ix2 p (0 : Fin 1)) = inv (ix2 r (0 : Fin 1)))
    (h2 : ∀ k : Fin 128, x2 (ix2 p k) = X (ix2 r k)) (h3 : x3 = Wl) (h4 : x4 = b) (h5 : x5 = Wr) :
    k0_pay1 x0 x1 x2 x3 x5 x4 (ix2 p q) = relu (layerK S inv X Wl b Wr) (ix2 r q) := by
  subst h3 h4 h5
  rw [first_apply]
  unfold relu layerK
  refine congrArg (max · zero) (linAt_congr x3 x5 q (fun k => ?_) (fun k => h2 k) rfl)
  rw [h0 k, h1, rowOf_ix2]

/-- Entry (p, q) of the second launch's stored block, likewise: the layer with no activation. -/
theorem second_entry (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32)
    (S : FVec Ideal S100000x128 .f32) (inv : FVec Ideal S100000x1 .f32) (X : FVec Ideal S100000x128 .f32)
    (Wl : FVec Ideal S128x128 .f32) (b : FVec Ideal S1x128 .f32) (Wr : FVec Ideal S128x128 .f32)
    (p : Fin 5000) (q : Fin 128) (r : Fin 100000)
    (h0 : ∀ k : Fin 128, x0 (ix2 p k) = S (ix2 r k)) (h1 : x1 (ix2 p (0 : Fin 1)) = inv (ix2 r (0 : Fin 1)))
    (h2 : ∀ k : Fin 128, x2 (ix2 p k) = X (ix2 r k)) (h3 : x3 = Wl) (h4 : x4 = b) (h5 : x5 = Wr) :
    k1_pay1 x0 x1 x2 x3 x5 x4 (ix2 p q) = layerK S inv X Wl b Wr (ix2 r q) := by
  subst h3 h4 h5
  rw [second_apply]
  unfold layerK
  refine linAt_congr x3 x5 q (fun k => ?_) (fun k => h2 k) rfl
  rw [h0 k, h1, rowOf_ix2]

/-! ## The first launch -/

/-- The index maps of the first launch, decided over its twenty points: the three row-blocked inputs and the output
    sit at block row `t`, block column 0; the two weight matrices and the bias row are one block each. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the block of neighbour sums at point t is row 5000 · t + p of the array. -/
theorem sums0_read (c : Dev nD) (t : Fin cfg0.N) (p : Fin 5000) (k : Fin 128) (r : Fin 100000) (hr : r.val = t.val * 5000 + p.val) :
    iblk0 V c 0 t (ix2 p k : S5000x128.Idx) = V c main_v22 (ix2 r k : S100000x128.Idx) := by
  show V c main_v22 (((cfg0.win 0).blk t).view.emb (ix2 p k : S5000x128.Idx)) = V c main_v22 (ix2 r k : S100000x128.Idx)
  refine congrArg (V c main_v22) (funext fun a => Fin.ext ?_)
  obtain ⟨e0, e1, -⟩ := idx_facts0 t
  match a with
  | ⟨0, _⟩ => show win0_0.index t (0 : Fin 2) * 5000 + 1 * p.val = r.val; omega
  | ⟨1, _⟩ => show win0_0.index t (1 : Fin 2) * 128 + 1 * k.val = k.val; omega

/-- Row p of the piece of the reciprocal column at point t is row 5000 · t + p of the column. -/
theorem recip0_read (c : Dev nD) (t : Fin cfg0.N) (p : Fin 5000) (r : Fin 100000) (hr : r.val = t.val * 5000 + p.val) :
    iblk0 V c 1 t (ix2 p (0 : Fin 1) : S5000x1.Idx) = V c main_v12 (ix2 r (0 : Fin 1) : S100000x1.Idx) := by
  show V c main_v12 (((cfg0.win 1).blk t).view.emb (ix2 p (0 : Fin 1) : S5000x1.Idx)) = V c main_v12 (ix2 r (0 : Fin 1) : S100000x1.Idx)
  refine congrArg (V c main_v12) (funext fun a => Fin.ext ?_)
  obtain ⟨-, -, e0, e1, -⟩ := idx_facts0 t
  match a with
  | ⟨0, _⟩ => show win0_1.index t (0 : Fin 2) * 5000 + 1 * p.val = r.val; omega
  | ⟨1, _⟩ => show win0_1.index t (1 : Fin 2) * 1 + 1 * 0 = 0; omega

/-- Row p of the block of node features at point t is row 5000 · t + p of the array. -/
theorem feats0_read (c : Dev nD) (t : Fin cfg0.N) (p : Fin 5000) (k : Fin 128) (r : Fin 100000) (hr : r.val = t.val * 5000 + p.val) :
    iblk0 V c 2 t (ix2 p k : S5000x128.Idx) = V c main_arg0 (ix2 r k : S100000x128.Idx) := by
  show V c main_arg0 (((cfg0.win 2).blk t).view.emb (ix2 p k : S5000x128.Idx)) = V c main_arg0 (ix2 r k : S100000x128.Idx)
  refine congrArg (V c main_arg0) (funext fun a => Fin.ext ?_)
  obtain ⟨-, -, -, -, e0, e1, -⟩ := idx_facts0 t
  match a with
  | ⟨0, _⟩ => show win0_2.index t (0 : Fin 2) * 5000 + 1 * p.val = r.val; omega
  | ⟨1, _⟩ => show win0_2.index t (1 : Fin 2) * 128 + 1 * k.val = k.val; omega

/-- The left weights' one block is the whole matrix, at every point. -/
theorem left0_read (c : Dev nD) (t : Fin cfg0.N) : iblk0 V c 3 t = V c main_arg2 := by
  funext y
  show V c main_arg2 (((cfg0.win 3).blk t).view.emb y) = V c main_arg2 y
  refine congrArg (V c main_arg2) (funext fun a => Fin.ext ?_)
  obtain ⟨-, -, -, -, -, -, e0, e1, -⟩ := idx_facts0 t
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias row's one block is the whole row, at every point. -/
theorem bias0_read (c : Dev nD) (t : Fin cfg0.N) : iblk0 V c 4 t = V c main_v23 := by
  funext y
  show V c main_v23 (((cfg0.win 4).blk t).view.emb y) = V c main_v23 y
  refine congrArg (V c main_v23) (funext fun a => Fin.ext ?_)
  obtain ⟨-, -, -, -, -, -, -, -, e0, e1, -⟩ := idx_facts0 t
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The right weights' one block is the whole matrix, at every point. -/
theorem right0_read (c : Dev nD) (t : Fin cfg0.N) : iblk0 V c 5 t = V c main_arg4 := by
  funext y
  show V c main_arg4 (((cfg0.win 5).blk t).view.emb y) = V c main_arg4 y
  refine congrArg (V c main_arg4) (funext fun a => Fin.ext ?_)
  obtain ⟨-, -, -, -, -, -, -, -, -, -, e0, e1, -⟩ := idx_facts0 t
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The array the first launch's output window ends holding, as one function of the arrays the launch finds. -/
abbrev out0 (c : Dev nD) : FVec Ideal S100000x128 .f32 :=
  relu (layerK (V c main_v22) (V c main_v12) (V c main_arg0) (V c main_arg2) (V c main_v23) (V c main_arg4))

/-- WHAT POINT t WRITES BACK is block t of that array: entry (p, q) of the stored block is the layer at row
    5000 · t + p, column q, because the loaded blocks are rows 5000 · t … 5000 · t + 4999 of the row-blocked arrays
    and the weights and the bias are loaded whole. -/
theorem flushed0_eq (c : Dev nD) (t : Fin cfg0.N) :
    (dat0 (F := Ideal) V c).flushed 6 t = ((cfg0.win 6).blk t).view.read (Elt Ideal) (out0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  funext j
  have hN : t.val < 20 := by have h := t.isLt; have e : cfg0.N = 20 := N_0; omega
  have hp : (j 0).val < 5000 := (j 0).isLt
  have hq : (j 1).val < 128 := (j 1).isLt
  obtain ⟨-, -, -, -, -, -, -, -, -, -, -, -, e0, e1⟩ := idx_facts0 t
  have hj : j = (ix2 (⟨(j 0).val, hp⟩ : Fin 5000) (⟨(j 1).val, hq⟩ : Fin 128) : S5000x128.Idx) :=
    funext fun a => Fin.ext (by match a with | ⟨0, _⟩ => rfl | ⟨1, _⟩ => rfl)
  have he : ((cfg0.win 6).blk t).view.emb j
      = (ix2 (⟨t.val * 5000 + (j 0).val, by omega⟩ : Fin 100000) (⟨(j 1).val, hq⟩ : Fin 128) : S100000x128.Idx) := funext fun a => Fin.ext (by
    match a with
    | ⟨0, _⟩ => show win0_6.index t (0 : Fin 2) * 5000 + 1 * (j 0).val = t.val * 5000 + (j 0).val; omega
    | ⟨1, _⟩ => show win0_6.index t (1 : Fin 2) * 128 + 1 * (j 1).val = (j 1).val; omega)
  show k0_pay1 (iblk0 V c 0 t) (iblk0 V c 1 t) (iblk0 V c 2 t) (iblk0 V c 3 t) (iblk0 V c 5 t) (iblk0 V c 4 t) j
    = out0 V c (((cfg0.win 6).blk t).view.emb j)
  rw [he]
  refine (congrArg (k0_pay1 (iblk0 V c 0 t) (iblk0 V c 1 t) (iblk0 V c 2 t) (iblk0 V c 3 t) (iblk0 V c 5 t) (iblk0 V c 4 t)) hj).trans ?_
  exact first_entry _ _ _ _ _ _ _ _ _ _ _ _ ⟨(j 0).val, hp⟩ ⟨(j 1).val, hq⟩ ⟨t.val * 5000 + (j 0).val, by omega⟩
    (fun k => sums0_read V c t ⟨(j 0).val, hp⟩ k _ rfl) (recip0_read V c t ⟨(j 0).val, hp⟩ _ rfl)
    (fun k => feats0_read V c t ⟨(j 0).val, hp⟩ k _ rfl)
    (left0_read V c t) (bias0_read V c t) (right0_read V c t)

/-- An index of the array is in point t's block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- The twenty blocks of 5000 rows cover the array: row r is in the block of point r / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < cfg0.N := by rw [show cfg0.N = grid0.N from rfl, N_0]; omega
  obtain ⟨-, -, -, -, -, -, -, -, -, -, -, -, e0, e1⟩ := idx_facts0 ⟨(i 0).val / 5000, hlt⟩
  refine ⟨⟨(i 0).val / 5000, hlt⟩, flush0_6 _, ?_⟩
  rw [mem_blk0]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e1]; omega

/-- THE ARRAY after the first launch: the layer of the arrays the launch finds, at every index. -/
theorem final0 (c : Dev nD) : (dat0 (F := Ideal) V c).arrAt 6 cfg0.N = out0 V c :=
  (dat0 (F := Ideal) V c).arrAt_eq_of_cover 6 (out0 V c) (fun t _ => flushed0_eq V c t) cover0

/-! ## The second launch -/

/-- The index maps of the second launch, decided over its twenty points: the three row-blocked inputs and the output
    sit at block row `t`, block column 0; the two weight matrices and the bias row are one block each. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the block of neighbour sums at point t is row 5000 · t + p of the array. -/
theorem sums1_read (c : Dev nD) (t : Fin cfg1.N) (p : Fin 5000) (k : Fin 128) (r : Fin 100000) (hr : r.val = t.val * 5000 + p.val) :
    iblk1 V c 0 t (ix2 p k : S5000x128.Idx) = V c main_v34 (ix2 r k : S100000x128.Idx) := by
  show V c main_v34 (((cfg1.win 0).blk t).view.emb (ix2 p k : S5000x128.Idx)) = V c main_v34 (ix2 r k : S100000x128.Idx)
  refine congrArg (V c main_v34) (funext fun a => Fin.ext ?_)
  obtain ⟨e0, e1, -⟩ := idx_facts1 t
  match a with
  | ⟨0, _⟩ => show win1_0.index t (0 : Fin 2) * 5000 + 1 * p.val = r.val; omega
  | ⟨1, _⟩ => show win1_0.index t (1 : Fin 2) * 128 + 1 * k.val = k.val; omega

/-- Row p of the piece of the reciprocal column at point t is row 5000 · t + p of the column. -/
theorem recip1_read (c : Dev nD) (t : Fin cfg1.N) (p : Fin 5000) (r : Fin 100000) (hr : r.val = t.val * 5000 + p.val) :
    iblk1 V c 1 t (ix2 p (0 : Fin 1) : S5000x1.Idx) = V c main_v12 (ix2 r (0 : Fin 1) : S100000x1.Idx) := by
  show V c main_v12 (((cfg1.win 1).blk t).view.emb (ix2 p (0 : Fin 1) : S5000x1.Idx)) = V c main_v12 (ix2 r (0 : Fin 1) : S100000x1.Idx)
  refine congrArg (V c main_v12) (funext fun a => Fin.ext ?_)
  obtain ⟨-, -, e0, e1, -⟩ := idx_facts1 t
  match a with
  | ⟨0, _⟩ => show win1_1.index t (0 : Fin 2) * 5000 + 1 * p.val = r.val; omega
  | ⟨1, _⟩ => show win1_1.index t (1 : Fin 2) * 1 + 1 * 0 = 0; omega

/-- Row p of the block of node features at point t is row 5000 · t + p of the array. -/
theorem feats1_read (c : Dev nD) (t : Fin cfg1.N) (p : Fin 5000) (k : Fin 128) (r : Fin 100000) (hr : r.val = t.val * 5000 + p.val) :
    iblk1 V c 2 t (ix2 p k : S5000x128.Idx) = V c main_v24 (ix2 r k : S100000x128.Idx) := by
  show V c main_v24 (((cfg1.win 2).blk t).view.emb (ix2 p k : S5000x128.Idx)) = V c main_v24 (ix2 r k : S100000x128.Idx)
  refine congrArg (V c main_v24) (funext fun a => Fin.ext ?_)
  obtain ⟨-, -, -, -, e0, e1, -⟩ := idx_facts1 t
  match a with
  | ⟨0, _⟩ => show win1_2.index t (0 : Fin 2) * 5000 + 1 * p.val = r.val; omega
  | ⟨1, _⟩ => show win1_2.index t (1 : Fin 2) * 128 + 1 * k.val = k.val; omega

/-- The left weights' one block is the whole matrix, at every point. -/
theorem left1_read (c : Dev nD) (t : Fin cfg1.N) : iblk1 V c 3 t = V c main_arg5 := by
  funext y
  show V c main_arg5 (((cfg1.win 3).blk t).view.emb y) = V c main_arg5 y
  refine congrArg (V c main_arg5) (funext fun a => Fin.ext ?_)
  obtain ⟨-, -, -, -, -, -, e0, e1, -⟩ := idx_facts1 t
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias row's one block is the whole row, at every point. -/
theorem bias1_read (c : Dev nD) (t : Fin cfg1.N) : iblk1 V c 4 t = V c main_v35 := by
  funext y
  show V c main_v35 (((cfg1.win 4).blk t).view.emb y) = V c main_v35 y
  refine congrArg (V c main_v35) (funext fun a => Fin.ext ?_)
  obtain ⟨-, -, -, -, -, -, -, -, e0, e1, -⟩ := idx_facts1 t
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The right weights' one block is the whole matrix, at every point. -/
theorem right1_read (c : Dev nD) (t : Fin cfg1.N) : iblk1 V c 5 t = V c main_arg7 := by
  funext y
  show V c main_arg7 (((cfg1.win 5).blk t).view.emb y) = V c main_arg7 y
  refine congrArg (V c main_arg7) (funext fun a => Fin.ext ?_)
  obtain ⟨-, -, -, -, -, -, -, -, -, -, e0, e1, -⟩ := idx_facts1 t
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The array the second launch's output window ends holding, as one function of the arrays the launch finds. -/
abbrev out1 (c : Dev nD) : FVec Ideal S100000x128 .f32 :=
  layerK (V c main_v34) (V c main_v12) (V c main_v24) (V c main_arg5) (V c main_v35) (V c main_arg7)

/-- WHAT POINT t WRITES BACK is block t of that array: entry (p, q) of the stored block is the layer at row
    5000 · t + p, column q, because the loaded blocks are rows 5000 · t … 5000 · t + 4999 of the row-blocked arrays
    and the weights and the bias are loaded whole. -/
theorem flushed1_eq (c : Dev nD) (t : Fin cfg1.N) :
    (dat1 (F := Ideal) V c).flushed 6 t = ((cfg1.win 6).blk t).view.read (Elt Ideal) (out1 V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  funext j
  have hN : t.val < 20 := by have h := t.isLt; have e : cfg1.N = 20 := N_1; omega
  have hp : (j 0).val < 5000 := (j 0).isLt
  have hq : (j 1).val < 128 := (j 1).isLt
  obtain ⟨-, -, -, -, -, -, -, -, -, -, -, -, e0, e1⟩ := idx_facts1 t
  have hj : j = (ix2 (⟨(j 0).val, hp⟩ : Fin 5000) (⟨(j 1).val, hq⟩ : Fin 128) : S5000x128.Idx) :=
    funext fun a => Fin.ext (by match a with | ⟨0, _⟩ => rfl | ⟨1, _⟩ => rfl)
  have he : ((cfg1.win 6).blk t).view.emb j
      = (ix2 (⟨t.val * 5000 + (j 0).val, by omega⟩ : Fin 100000) (⟨(j 1).val, hq⟩ : Fin 128) : S100000x128.Idx) := funext fun a => Fin.ext (by
    match a with
    | ⟨0, _⟩ => show win1_6.index t (0 : Fin 2) * 5000 + 1 * (j 0).val = t.val * 5000 + (j 0).val; omega
    | ⟨1, _⟩ => show win1_6.index t (1 : Fin 2) * 128 + 1 * (j 1).val = (j 1).val; omega)
  show k1_pay1 (iblk1 V c 0 t) (iblk1 V c 1 t) (iblk1 V c 2 t) (iblk1 V c 3 t) (iblk1 V c 5 t) (iblk1 V c 4 t) j
    = out1 V c (((cfg1.win 6).blk t).view.emb j)
  rw [he]
  refine (congrArg (k1_pay1 (iblk1 V c 0 t) (iblk1 V c 1 t) (iblk1 V c 2 t) (iblk1 V c 3 t) (iblk1 V c 5 t) (iblk1 V c 4 t)) hj).trans ?_
  exact second_entry _ _ _ _ _ _ _ _ _ _ _ _ ⟨(j 0).val, hp⟩ ⟨(j 1).val, hq⟩ ⟨t.val * 5000 + (j 0).val, by omega⟩
    (fun k => sums1_read V c t ⟨(j 0).val, hp⟩ k _ rfl) (recip1_read V c t ⟨(j 0).val, hp⟩ _ rfl)
    (fun k => feats1_read V c t ⟨(j 0).val, hp⟩ k _ rfl)
    (left1_read V c t) (bias1_read V c t) (right1_read V c t)

/-- An index of the array is in point t's block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v36).slice (win1_6.rect t)).set ↔ _
  rw [View.set_slice_whole, Rect.mem_set_unit]
  exact Iff.rfl

/-- The twenty blocks of 5000 rows cover the array: row r is in the block of point r / 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < cfg1.N := by rw [show cfg1.N = grid1.N from rfl, N_1]; omega
  obtain ⟨-, -, -, -, -, -, -, -, -, -, -, -, e0, e1⟩ := idx_facts1 ⟨(i 0).val / 5000, hlt⟩
  refine ⟨⟨(i 0).val / 5000, hlt⟩, flush1_6 _, ?_⟩
  rw [mem_blk1]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    rw [e1]; omega

/-- THE ARRAY after the second launch: the layer of the arrays the launch finds, at every index. -/
theorem final1 (c : Dev nD) : (dat1 (F := Ideal) V c).arrAt 6 cfg1.N = out1 V c :=
  (dat1 (F := Ideal) V c).arrAt_eq_of_cover 6 (out1 V c) (fun t _ => flushed1_eq V c t) cover1

end Cert.KernelIdeal.Layers

end
-- ==== Proof.KernelFolds.lean ====
/-
  The idealized kernel's host operations, read at the buffers each launch is entered with.

  Before the first launch the program builds, from the edge list alone, the destination node of every edge, the
  source index of every edge (a negative index wrapped once by the number of nodes), the number of in-edges of every
  node and the column of reciprocals 1 / max(count, 1); from the features it gathers the source rows and sums them
  into the destination rows; and it sets the first bias vector as a row. Between the launches it gathers and sums
  the first launch's output rows in the same way and sets the second bias vector as a row. Nothing else is written:
  the reciprocal column, the edge-derived indices and the arguments are still what they were when the second launch
  is entered.
-/
import proofs.«119740_j16690242913041_2_alg».proof.Proof.Gen.KernelIdeal.Frame
import proofs.«119740_j16690242913041_2_alg».proof.Proof.SageSpec

set_option maxRecDepth 16384

noncomputable section

namespace Cert.KernelIdeal.Folds

open Cert.KernelIdeal Cert.KernelIdeal.Gen Cert.Sage
open Idealize.ShloMosaic Idealize.ShloMosaic.TcCoe Idealize.SL.Sem Idealize.ShloMosaic.StableHlo

/-! ## The host operations as functions of the arguments -/

/-- The destination node of every edge: row 1 of the edge list. -/
def dst (ei : IVec S2x600000 32) : IVec S600000 32 :=
  shapeCast _ (extractStridedSlice S1x600000 ![1, 0] ei slices_S2x600000_S1x600000_1_0) shapeCasts_S1x600000_S600000

/-- The source node of every edge: row 0 of the edge list. -/
def src (ei : IVec S2x600000 32) : IVec S600000 32 :=
  shapeCast _ (extractStridedSlice S1x600000 ![0, 0] ei slices_S2x600000_S1x600000_0_0) shapeCasts_S1x600000_S600000

/-- The source index the gather takes: the source node, a negative one moved up by the number of nodes, as a column. -/
def srcIdx (ei : IVec S2x600000 32) : IVec S600000x1 32 :=
  broadcastInDim S600000x1 ![0] bcast_S600000_S600000x1_0
    (select (cmpi .slt (src ei) (broadcastInDim S600000 ![] bcast_S_S600000 (constantI S_ 32 0#32)))
      (addi (src ei) (broadcastInDim S600000 ![] bcast_S_S600000 (constantI S_ 32 100000#32))) (src ei))

/-- The neighbour sums of an array of node rows: the source rows gathered, then summed into the destination rows. -/
def aggSum (x : FVec Ideal S100000x128 .f32) (ei : IVec S2x600000 32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 (dst ei))
    (Host.gather gather_S100000x128_S600000x1_S600000x128_1_0_n_n_0_1_1128 x (srcIdx ei))

/-- The number of in-edges of every node: ones summed into the destination nodes. -/
def count (ei : IVec S2x600000 32) : FVec Ideal S100000 .f32 :=
  Host.scatterAdd scatter_S100000_S600000x1_S600000_n_0_0_1
    (broadcastInDim S100000 ![] bcast_S_S100000 (constant (F := Ideal) S_ .f32 0x00000000#32))
    (broadcastInDim S600000x1 ![0] bcast_S600000_S600000x1_0 (dst ei))
    (broadcastInDim S600000 ![] bcast_S_S600000 (constant (F := Ideal) S_ .f32 0x3F800000#32))

/-- The column of reciprocals 1 / max(count, 1). -/
def recip (ei : IVec S2x600000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf (count ei) (broadcastInDim S100000 ![] bcast_S_S100000 (constant (F := Ideal) S_ .f32 0x3F800000#32))))

/-- A bias vector set as a row matrix. -/
def biasRow (b : FVec Ideal S128 .f32) : FVec Ideal S1x128 .f32 := shapeCast _ b shapeCasts_S128_S1x128

/-- The first layer's output as the kernel computes it: the layer of the features' neighbour sums, the reciprocal
    column and the features, then the maximum with zero. -/
def hiddenOf (x : FVec Ideal S100000x128 .f32) (ei : IVec S2x600000 32) (W1l : FVec Ideal S128x128 .f32)
    (b1 : FVec Ideal S128 .f32) (W1r : FVec Ideal S128x128 .f32) : FVec Ideal S100000x128 .f32 :=
  relu (layerK (aggSum x ei) (recip ei) x W1l (biasRow b1) W1r)

/-- The kernel's result as a function of the eight arguments: the layer of the first output's neighbour sums, the same
    reciprocal column and the first output. -/
def resultOf (x : FVec Ideal S100000x128 .f32) (ei : IVec S2x600000 32) (W1l : FVec Ideal S128x128 .f32)
    (b1 : FVec Ideal S128 .f32) (W1r W2l : FVec Ideal S128x128 .f32) (b2 : FVec Ideal S128 .f32)
    (W2r : FVec Ideal S128x128 .f32) : FVec Ideal S100000x128 .f32 :=
  layerK (aggSum (hiddenOf x ei W1l b1 W1r) ei) (recip ei) (hiddenOf x ei W1l b1 W1r) W2l (biasRow b2) W2r

variable (m : (ℓ : Loc nD τ sig) → Buf (Elt Ideal) ℓ) (ρ : Dev nD → PrngReg)

/-! ## What the first launch is entered with -/

theorem first_sums (c : Dev nD) : V1 m ρ c main_v22 = aggSum (m ((c.tc : Thread nD τ).loc main_arg0)) (m ((c.tc : Thread nD τ).loc main_arg1)) := by
  show StableHlo.after hostOps0 (W0 m ρ c) (Proc.devRef .tc main_v22) = _
  after_results_simp
  rfl

theorem first_recip (c : Dev nD) : V1 m ρ c main_v12 = recip (m ((c.tc : Thread nD τ).loc main_arg1)) := by
  show StableHlo.after hostOps0 (W0 m ρ c) (Proc.devRef .tc main_v12) = _
  after_results_simp
  rfl

theorem first_feats (c : Dev nD) : V1 m ρ c main_arg0 = (m ((c.tc : Thread nD τ).loc main_arg0)) := by
  show StableHlo.after hostOps0 (W0 m ρ c) (Proc.devRef .tc main_arg0) = _
  after_results_simp

theorem first_left (c : Dev nD) : V1 m ρ c main_arg2 = (m ((c.tc : Thread nD τ).loc main_arg2)) := by
  show StableHlo.after hostOps0 (W0 m ρ c) (Proc.devRef .tc main_arg2) = _
  after_results_simp

theorem first_bias (c : Dev nD) : V1 m ρ c main_v23 = biasRow (m ((c.tc : Thread nD τ).loc main_arg3)) := by
  show StableHlo.after hostOps0 (W0 m ρ c) (Proc.devRef .tc main_v23) = _
  after_results_simp
  rfl

theorem first_right (c : Dev nD) : V1 m ρ c main_arg4 = (m ((c.tc : Thread nD τ).loc main_arg4)) := by
  show StableHlo.after hostOps0 (W0 m ρ c) (Proc.devRef .tc main_arg4) = _
  after_results_simp

/-! ## What the first launch leaves for the operations after it -/

/-- The edge-derived indices and the reciprocal column are not among the first launch's arrays, and the arguments it
    reads it leaves as they were. -/
theorem mid_dst (c : Dev nD) : W2 m ρ c (Proc.devRef .tc main_v3) = dst (m ((c.tc : Thread nD τ).loc main_arg1)) := by
  refine (W2_of_ne m ρ c main_v3 (by decide)).trans ?_
  show StableHlo.after hostOps0 (W0 m ρ c) (Proc.devRef .tc main_v3) = _
  after_results_simp
  rfl

theorem mid_src (c : Dev nD) : W2 m ρ c (Proc.devRef .tc main_v1) = src (m ((c.tc : Thread nD τ).loc main_arg1)) := by
  refine (W2_of_ne m ρ c main_v1 (by decide)).trans ?_
  show StableHlo.after hostOps0 (W0 m ρ c) (Proc.devRef .tc main_v1) = _
  after_results_simp
  rfl

theorem mid_recip (c : Dev nD) : W2 m ρ c (Proc.devRef .tc main_v12) = recip (m ((c.tc : Thread nD τ).loc main_arg1)) :=
  (W2_arr m ρ c 1).trans (((dat0 (V1 m ρ) c).arrAt_in 1 rfl _).trans ((A_eq0 (V1 m ρ) c 1).trans (first_recip m ρ c)))

theorem mid_arg5 (c : Dev nD) : W2 m ρ c (Proc.devRef .tc main_arg5) = (m ((c.tc : Thread nD τ).loc main_arg5)) := by
  refine (W2_of_ne m ρ c main_arg5 (by decide)).trans ?_
  show StableHlo.after hostOps0 (W0 m ρ c) (Proc.devRef .tc main_arg5) = _
  after_results_simp

theorem mid_arg6 (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results_simp

theorem mid_arg7 (c : Dev nD) : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results_simp

/-- The first launch's output array, as the operations after it find it. -/
abbrev hidden (c : Dev nD) : FVec Ideal S100000x128 .f32 := W2 m ρ c (Proc.devRef .tc main_v24)

/-! ## What the second launch is entered with -/

theorem second_sums (c : Dev nD) : V3 m ρ c main_v34 = aggSum (hidden m ρ c) (m ((c.tc : Thread nD τ).loc main_arg1)) := by
  show StableHlo.after hostOps1 (W2 m ρ c) (Proc.devRef .tc main_v34) = _
  after_results_simp
  rw [mid_dst, mid_src]
  rfl

theorem second_recip (c : Dev nD) : V3 m ρ c main_v12 = recip (m ((c.tc : Thread nD τ).loc main_arg1)) := by
  show StableHlo.after hostOps1 (W2 m ρ c) (Proc.devRef .tc main_v12) = _
  after_results_simp
  exact mid_recip m ρ c

theorem second_feats (c : Dev nD) : V3 m ρ c main_v24 = hidden m ρ c := by
  show StableHlo.after hostOps1 (W2 m ρ c) (Proc.devRef .tc main_v24) = _
  after_results_simp

theorem second_left (c : Dev nD) : V3 m ρ c main_arg5 = (m ((c.tc : Thread nD τ).loc main_arg5)) := by
  show StableHlo.after hostOps1 (W2 m ρ c) (Proc.devRef .tc main_arg5) = _
  after_results_simp
  exact mid_arg5 m ρ c

theorem second_bias (c : Dev nD) : V3 m ρ c main_v35 = biasRow (m ((c.tc : Thread nD τ).loc main_arg6)) := by
  show StableHlo.after hostOps1 (W2 m ρ c) (Proc.devRef .tc main_v35) = _
  after_results_simp
  rw [mid_arg6]
  rfl

theorem second_right (c : Dev nD) : V3 m ρ c main_arg7 = (m ((c.tc : Thread nD τ).loc main_arg7)) := by
  show StableHlo.after hostOps1 (W2 m ρ c) (Proc.devRef .tc main_arg7) = _
  after_results_simp
  exact mid_arg7 m ρ c

end Cert.KernelIdeal.Folds

end
-- ==== Proof.KernelValue.lean ====
/-
  The idealized kernel's result as one function of the arguments.

  The first launch leaves H = max(layer(S(x), inv, x, W1l, b1, W1r), 0), where S(·) gathers the source rows of its
  argument and sums them into the destination rows and inv is the column 1 / max(count, 1). The second launch is
  entered with S(H), the same column inv and H itself, and leaves layer(S(H), inv, H, W2l, b2, W2r): the result.
-/
import proofs.«119740_j16690242913041_2_alg».proof.Proof.FrameWithResult
import proofs.«119740_j16690242913041_2_alg».proof.Proof.KernelLayers
import proofs.«119740_j16690242913041_2_alg».proof.Proof.KernelFolds

set_option maxRecDepth 16384

noncomputable section

namespace Cert.KernelIdeal.Whole

open Cert.KernelIdeal Cert.KernelIdeal.Gen Cert.KernelIdeal.Layers Cert.KernelIdeal.Folds Cert.Sage
open Idealize.ShloMosaic Idealize.ShloMosaic.TcCoe Idealize.SL.Sem

variable (m : (ℓ : Loc nD τ sig) → Buf (Elt Ideal) ℓ) (ρ : Dev nD → PrngReg)

/-- What the first launch leaves in its output array. -/
theorem hidden_value (c : Dev nD) : hidden m ρ c = hiddenOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 6).trans ((final0 (V1 m ρ) c).trans ?_)
  show relu (layerK (V1 m ρ c main_v22) (V1 m ρ c main_v12) (V1 m ρ c main_arg0) (V1 m ρ c main_arg2) (V1 m ρ c main_v23)
    (V1 m ρ c main_arg4)) = _
  rw [first_sums, first_recip, first_feats, first_left, first_bias, first_right]
  rfl

/-- What the second launch leaves in the result buffer. -/
theorem result_value (c : Dev nD) :
    W4 m ρ c (Proc.devRef .tc main_v36) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 6).trans ((final1 (V3 m ρ) c).trans ?_)
  show layerK (V3 m ρ c main_v34) (V3 m ρ c main_v12) (V3 m ρ c main_v24) (V3 m ρ c main_arg5) (V3 m ρ c main_v35)
    (V3 m ρ c main_arg7) = _
  rw [second_sums, second_recip, second_feats, second_left, second_bias, second_right, hidden_value]
  rfl

/-- THE KERNEL'S RUN: every weakly fair execution ends with the result buffer at `resultOf` of the arguments and the
    arguments unchanged. -/
theorem run : θ_run defs (onTc (τ := τ) (main (F := Ideal))) ⟨m, fun _ => 0, ρ⟩ (fun r => ∀ c : Dev nD,
      r.2.mem ((c.tc : Thread nD τ).loc main_v36) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (Cert.KernelIdeal.Result.run m ρ)

end Cert.KernelIdeal.Whole

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.RefStages.lean ====
/-
  The reference program's result, layer by layer.

  The reference computes a layer with host operations on whole arrays: it divides the neighbour sums by the column
  max(count, 1) spread over the 128 lanes, multiplies by the left weights, adds the bias spread over the rows, and adds
  the features times the right weights. Read at an index (r, q) — a host product is the sum over the 128 contracted
  positions, a spread column reads its row, a spread row its column — this is the layer's linear part with the mean
  taken by division. The program applies it twice: to the input features, then (after the maximum with zero) to the
  first layer's output, the neighbour sums of each layer gathered and summed from that layer's input.
-/
import proofs.«119740_j16690242913041_2_alg».proof.Proof.Gen.ReferenceIdeal.Run
import proofs.«119740_j16690242913041_2_alg».proof.Proof.Gen.ReferenceIdeal.Read
import proofs.«119740_j16690242913041_2_alg».proof.Proof.SageSpec
import proofs.«119740_j16690242913041_2_alg».proof.Proof.LibBroadcastInDim

noncomputable section

namespace Cert.ReferenceIdeal.Stages

open Cert.ReferenceIdeal Cert.ReferenceIdeal.Gen Cert.ReferenceIdeal.Read Cert.Sage Cert.Lib.BroadcastInDim
open Idealize.ShloMosaic Idealize.ShloMosaic.ValueIdx

/-- The dimension numbers of the reference's products: rows × 128 against 128 × columns. -/
abbrev DR := dot_S100000x128_S128x128_S100000x128_1_0_0_1_n_n

/-- A host product of a 100000 × 128 array with a 128 × 128 matrix, at an index, is the sum over the 128 contracted
    positions of the array's row times the matrix's column. -/
theorem product_apply (X : FVec Ideal S100000x128 .f32) (W : FVec Ideal S128x128 .f32) (i : S100000x128.Idx) :
    Host.dotGeneral DR none X W i = ∑ k : Fin 128, X (ix2 (rowOf i) k) * W (ix2 k (colOf i)) := by
  refine (val_main_v27_apply X W i).trans (Finset.sum_congr rfl fun k _ => ?_)
  have el : lidx_main_v27 i k = (ix2 (rowOf i) k : S100000x128.Idx) :=
    funext fun a => Fin.ext (by match a with | ⟨0, _⟩ => rfl | ⟨1, _⟩ => rfl)
  have er : ridx_main_v27 i k = (ix2 k (colOf i) : S128x128.Idx) :=
    funext fun a => Fin.ext (by match a with | ⟨0, _⟩ => rfl | ⟨1, _⟩ => rfl)
  rw [el, er]

/-- One layer as the reference's host operations, over any neighbour sums `S`, counts `cnt`, features `X`, weights
    and bias. -/
def hostLayer (S : FVec Ideal S100000x128 .f32) (cnt : FVec Ideal S100000 .f32) (X : FVec Ideal S100000x128 .f32)
    (Wl : FVec Ideal S128x128 .f32) (b : FVec Ideal S128 .f32) (Wr : FVec Ideal S128x128 .f32) : FVec Ideal S100000x128 .f32 :=
  addf (addf (Host.dotGeneral DR none
        (Host.divf S (broadcastInDim S100000x128 ![0, 1] bcast_S100000x1_S100000x128_0_1
          (broadcastInDim S100000x1 ![0] bcast_S100000_S100000x1_0
            (maximumf cnt (broadcastInDim S100000 ![] bcast_S_S100000 (constant (F := Ideal) S_ .f32 0x3F800000#32))))))
        Wl)
      (broadcastInDim S100000x128 ![0, 1] bcast_S1x128_S100000x128_0_1 (broadcastInDim S1x128 ![1] bcast_S128_S1x128_1 b)))
    (Host.dotGeneral DR none X Wr)

/-- The divisor array at (r, k): max(count(r), 1), whatever the lane k. -/
theorem divisor_apply (cnt : FVec Ideal S100000 .f32) (r : Fin 100000) (k : Fin 128) :
    broadcastInDim S100000x128 ![0, 1] bcast_S100000x1_S100000x128_0_1
        (broadcastInDim S100000x1 ![0] bcast_S100000_S100000x1_0
          (maximumf cnt (broadcastInDim S100000 ![] bcast_S_S100000 (constant (F := Ideal) S_ .f32 0x3F800000#32))))
        (ix2 r k)
      = max (cnt (ix1 r)) one := by
  rw [col_lanes_apply, vec_col_apply, maximumf_apply, scalar_apply, constant_apply]

/-- The bias spread over the rows at (r, q): the bias entry q. -/
theorem bias_apply (b : FVec Ideal S128 .f32) (r : Fin 100000) (q : Fin 128) :
    broadcastInDim S100000x128 ![0, 1] bcast_S1x128_S100000x128_0_1 (broadcastInDim S1x128 ![1] bcast_S128_S1x128_1 b) (ix2 r q)
      = b (ix1 q) := by
  rw [row_rows_apply, vec_row_apply]

/-- The host operations of a layer ARE the layer with the mean taken by division, index by index. -/
theorem hostLayer_eq (S : FVec Ideal S100000x128 .f32) (cnt : FVec Ideal S100000 .f32) (X : FVec Ideal S100000x128 .f32)
    (Wl : FVec Ideal S128x128 .f32) (b : FVec Ideal S128 .f32) (Wr : FVec Ideal S128x128 .f32) :
    hostLayer S cnt X Wl b Wr = layerR S cnt X Wl b Wr := by
  funext i
  obtain ⟨r, q, rfl⟩ : ∃ (r : Fin 100000) (q : Fin 128), i = ix2 r q := ⟨rowOf i, colOf i, idx_eq i⟩
  unfold hostLayer layerR linAt
  rw [addf_apply, addf_apply, product_apply, product_apply, bias_apply, rowOf_ix2, colOf_ix2]
  refine congrArg₂ (· + ·) (congrArg₂ (· + ·) (Finset.sum_congr rfl fun k _ => ?_) rfl) rfl
  refine congrArg (· * Wl (ix2 k q)) ?_
  show Ideal.div (S (ix2 r k)) _ = _
  rw [divisor_apply]

/-- THE FIRST LAYER of the reference's run, before the activation. -/
theorem first_lin (x0 : FVec Ideal S100000x128 .f32) (x1 : IVec S2x600000 32) (x2 : FVec Ideal S128x128 .f32)
    (x3 : FVec Ideal S128 .f32) (x4 : FVec Ideal S128x128 .f32) :
    val_main_v28 (F := Ideal) x0 x1 x2 x3 x4
      = layerR (val_main_v13 (F := Ideal) x0 x1) (val_main_v17 (F := Ideal) x1) x0 x2 x3 x4 :=
  hostLayer_eq (val_main_v13 (F := Ideal) x0 x1) (val_main_v17 (F := Ideal) x1) x0 x2 x3 x4

/-- THE FIRST LAYER's output, which the second layer reads: the maximum with zero of the above. -/
theorem hidden_eq (x0 : FVec Ideal S100000x128 .f32) (x1 : IVec S2x600000 32) (x2 : FVec Ideal S128x128 .f32)
    (x3 : FVec Ideal S128 .f32) (x4 : FVec Ideal S128x128 .f32) :
    val_main_v29 (F := Ideal) x0 x1 x2 x3 x4
      = relu (layerR (val_main_v13 (F := Ideal) x0 x1) (val_main_v17 (F := Ideal) x1) x0 x2 x3 x4) := by
  funext i
  rw [val_main_v29_apply, first_lin, val_main_call0_v0_apply, val_main_call0_cst_apply]
  rfl

/-- THE SECOND LAYER: the reference's result is the layer of the first layer's output. -/
theorem result_eq (x0 : FVec Ideal S100000x128 .f32) (x1 : IVec S2x600000 32) (x2 : FVec Ideal S128x128 .f32)
    (x3 : FVec Ideal S128 .f32) (x4 x5 : FVec Ideal S128x128 .f32) (x6 : FVec Ideal S128 .f32) (x7 : FVec Ideal S128x128 .f32) :
    val_main_v58 (F := Ideal) x0 x1 x2 x3 x4 x5 x6 x7
      = layerR (val_main_v43 (F := Ideal) x0 x1 x2 x3 x4) (val_main_v47 (F := Ideal) x1) (val_main_v29 (F := Ideal) x0 x1 x2 x3 x4) x5 x6 x7 :=
  hostLayer_eq (val_main_v43 (F := Ideal) x0 x1 x2 x3 x4) (val_main_v47 (F := Ideal) x1) (val_main_v29 (F := Ideal) x0 x1 x2 x3 x4) x5 x6 x7

end Cert.ReferenceIdeal.Stages

end
-- ==== Proof.Bridge.lean ====
/-
  The kernel's result and the reference's result are one function of the arguments.

  Both programs gather and sum with the same host operations on the same edge list, so the neighbour sums S(·) and
  the counts are the same arrays once their inputs agree. What is left is the mean: the kernel's column holds
  1 / max(count, 1) — read at row r it is that quotient of the float words for one — and its bias row holds the bias
  vector; so each of its layers is the reference's layer by the law a · (1 / c) = a / c for c ≥ 1, first on the
  features and then, the first layers' outputs being one array, on that array.
-/
import proofs.«119740_j16690242913041_2_alg».proof.Proof.KernelFolds
import proofs.«119740_j16690242913041_2_alg».proof.Proof.RefStages
import proofs.«119740_j16690242913041_2_alg».proof.Proof.SageSpec
import proofs.«119740_j16690242913041_2_alg».proof.Proof.LibBroadcastInDim
import Idealize.ShloMosaic.Lib.ValueLayout

noncomputable section

namespace Cert.Bridge

open Cert.KernelIdeal Cert.KernelIdeal.Gen Cert.KernelIdeal.Folds Cert.Sage Cert.Lib.BroadcastInDim
open Idealize.ShloMosaic Idealize.ShloMosaic.ValueIdx

/-- The host's quotient of two arrays, at an index, is the exact quotient of the entries. -/
theorem hostDivf_apply {s : Shape} {φ : FTy} (a b : FVec Ideal s φ) (i : s.Idx) : Host.divf a b i = Ideal.div (a i) (b i) := rfl

/-- The reciprocal column at row r: one over max(count(r), 1). -/
theorem recip_apply (ei : IVec S2x600000 32) (r : Fin 100000) :
    recip ei (ix2 r (0 : Fin 1)) = Ideal.div one (max (count ei (ix1 r)) one) := by
  unfold recip
  rw [vec_col_apply, hostDivf_apply, maximumf_apply, scalar_apply, constant_apply]

/-- The bias row at column q: the bias vector's entry q. -/
theorem biasRow_apply (b : FVec Ideal S128 .f32) (q : Fin 128) : biasRow b (ix2 (0 : Fin 1) q) = b (ix1 q) :=
  shapeCast_a_1a_apply b shapeCasts_S128_S1x128 (0 : Fin 1) q

/-- A layer as the kernel arranges it is the layer as the reference arranges it. -/
theorem layer_eq (S : FVec Ideal S100000x128 .f32) (ei : IVec S2x600000 32) (X : FVec Ideal S100000x128 .f32)
    (Wl : FVec Ideal S128x128 .f32) (b : FVec Ideal S128 .f32) (Wr : FVec Ideal S128x128 .f32) :
    layerK S (recip ei) X Wl (biasRow b) Wr = layerR S (count ei) X Wl b Wr :=
  layerK_eq_layerR S (recip ei) (count ei) X Wl Wr (biasRow b) b (recip_apply ei) (biasRow_apply b)

/-- The first layers' outputs are one array: the kernel's neighbour sums and counts are the reference's (the same host
    operations on the same arguments), and the layer's two arrangements agree. -/
theorem hidden_eq_reference (x : FVec Ideal S100000x128 .f32) (ei : IVec S2x600000 32) (W1l : FVec Ideal S128x128 .f32)
    (b1 : FVec Ideal S128 .f32) (W1r : FVec Ideal S128x128 .f32) :
    hiddenOf x ei W1l b1 W1r = Cert.ReferenceIdeal.Read.val_main_v29 (F := Ideal) x ei W1l b1 W1r := by
  unfold hiddenOf
  rw [layer_eq]
  exact (Cert.ReferenceIdeal.Stages.hidden_eq x ei W1l b1 W1r).symm

/-- THE TWO RESULTS ARE ONE FUNCTION of the arguments. -/
theorem result_eq_reference (x : FVec Ideal S100000x128 .f32) (ei : IVec S2x600000 32) (W1l : FVec Ideal S128x128 .f32)
    (b1 : FVec Ideal S128 .f32) (W1r W2l : FVec Ideal S128x128 .f32) (b2 : FVec Ideal S128 .f32) (W2r : FVec Ideal S128x128 .f32) :
    resultOf x ei W1l b1 W1r W2l b2 W2r = Cert.ReferenceIdeal.Read.val_main_v58 (F := Ideal) x ei W1l b1 W1r W2l b2 W2r := by
  unfold resultOf
  rw [layer_eq, hidden_eq_reference]
  exact (Cert.ReferenceIdeal.Stages.result_eq x ei W1l b1 W1r W2l b2 W2r).symm

end Cert.Bridge

end
-- ==== Proof.lean ====
/-
  A two-layer graph convolution with mean aggregation (for every node: the mean of its in-neighbours' rows times one
  weight matrix, plus a bias, plus the node's own row times another; a maximum with zero between the layers), computed
  by a kernel that fuses the mean's division into two blocked launches, against the plain array program.

  The three frames: the kernel's two programs by their generated frame certificates, the reference's by its generated
  run. The idealization rewrote nothing, so its conjunct is trivial. The equivalence on the extended reals: the
  kernel's run ends with its result at one function of the arguments (the two launches' write-backs, read back as whole
  arrays over the host operations between them); the reference's run ends at its operations' composed term; and the
  two are one function because both gather and sum alike and a · (1 / c) = a / c for c = max(count, 1) ≥ 1. The
  precondition is never opened: the law holds for every extended real.
-/
import proofs.«119740_j16690242913041_2_alg».proof.Defs
import proofs.«119740_j16690242913041_2_alg».proof.Proof.Gen.Kernel
import proofs.«119740_j16690242913041_2_alg».proof.Proof.Gen.Kernel.Frame
import proofs.«119740_j16690242913041_2_alg».proof.Proof.Gen.KernelIdeal
import proofs.«119740_j16690242913041_2_alg».proof.Proof.Gen.KernelIdeal.Frame
import proofs.«119740_j16690242913041_2_alg».proof.Proof.Gen.ReferenceIdeal
import proofs.«119740_j16690242913041_2_alg».proof.Proof.Gen.ReferenceIdeal.Run
import proofs.«119740_j16690242913041_2_alg».proof.Proof.Gen.ReferenceIdeal.Read
import proofs.«119740_j16690242913041_2_alg».proof.Proof.Gen.Pre_finite_inputs
import proofs.«119740_j16690242913041_2_alg».proof.Proof.KernelValue
import proofs.«119740_j16690242913041_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same result array: the kernel's run at its
    function of its arguments, the reference's at its stages' composed term of its own, the arguments equal, and the
    two functions one. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v58_eq, h0, h1, h2, h3, h4, h5, h6, h7]
  exact (Cert.Bridge.result_eq_reference _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
